-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x512 : Shape := ⟨2, ![16384, 512]⟩
abbrev S512x256 : Shape := ⟨2, ![512, 256]⟩
abbrev S256 : Shape := ⟨1, ![256]⟩
abbrev S256x256 : Shape := ⟨2, ![256, 256]⟩
abbrev S256x16 : Shape := ⟨2, ![256, 16]⟩
abbrev S16 : Shape := ⟨1, ![16]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x16 : S_.BroadcastsInDim S256x16 (![] : Fin 0 → Fin S256x16.rank)
  reducesTo_S256x16_S_d0_1 : S256x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg4 : FVec F S256 .f32) (main_arg5 : FVec F S256x16 .f32) (main_arg6 : FVec F S16 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x16 .f32 := Host.absf main_arg5
  let main_cst_8 : FVec F S_ .f32 := constant S_ .f32 0x7F800000#32
  let main_v25 : FVec F S256x16 .f32 := broadcastInDim S256x16 ![] bcast_S_S256x16 main_cst_8
  let main_v26 : IVec S256x16 1 := cmpf .olt main_v24 main_v25
  let main_c_9 : IVec S_ 1 := constantI S_ 1 1#1
  let main_v27 : IVec S_ 1 := (fun x v => Host.reduce IntOp.andi x v reducesTo_S256x16_S_d0_1 h_S_) main_v26 main_c_9
  let main_v28 : IVec S_ 1 := andi main_v23 main_v27
  let main_v29 : FVec F S16 .f32 := Host.absf main_arg6
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  main_v33

def fn {F : FTy → Type} [FloatOps F] (main_arg0 : FVec F S16384x512 .f32) (main_arg1 : FVec F S512x256 .f32) (main_arg2 : FVec F S256 .f32) (main_arg3 : FVec F S256x256 .f32) (main_arg4 : FVec F S256 .f32) (main_arg5 : FVec F S256x16 .f32) (main_arg6 : FVec F S16 .f32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S512x256 .f32 := Host.absf main_arg1
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg4 main_arg5 main_arg6 main_v13 main_v16
-- ==== Kernel.lean ====
abbrev S16384x512 : Shape := ⟨2, ![16384, 512]⟩
abbrev S512x256 : Shape := ⟨2, ![512, 256]⟩
abbrev S256 : Shape := ⟨1, ![256]⟩
abbrev S256x256 : Shape := ⟨2, ![256, 256]⟩
abbrev S256x16 : Shape := ⟨2, ![256, 16]⟩
abbrev S16 : Shape := ⟨1, ![16]⟩
abbrev S1x256 : Shape := ⟨2, ![1, 256]⟩
abbrev S1x16 : Shape := ⟨2, ![1, 16]⟩
abbrev S16384x16 : Shape := ⟨2, ![16384, 16]⟩
abbrev S4096x512 : Shape := ⟨2, ![4096, 512]⟩
abbrev S4096x16 : Shape := ⟨2, ![4096, 16]⟩
abbrev S4096x256 : Shape := ⟨2, ![4096, 256]⟩

abbrev nBuf : Space → Nat
  | .hbm => 11
  | .vmem => 12
  | .smem => 0
  | _ => 0

abbrev bufTy : (tb : Table) → Fin (tcTables nBuf tb) → BufTy
  | .hbm, ⟨0, _⟩ => ⟨S16384x512, .f32⟩
  | .hbm, ⟨1, _⟩ => ⟨S512x256, .f32⟩
  | .hbm, ⟨2, _⟩ => ⟨S256, .f32⟩
  | .hbm, ⟨3, _⟩ => ⟨S256x256, .f32⟩
  | .hbm, ⟨4, _⟩ => ⟨S256, .f32⟩
  | .hbm, ⟨5, _⟩ => ⟨S256x16, .f32⟩
  | .hbm, ⟨6, _⟩ => ⟨S16, .f32⟩
  | .hbm, ⟨7, _⟩ => ⟨S1x256, .f32⟩
  | .hbm, ⟨8, _⟩ => ⟨S1x256, .f32⟩
  | .hbm, ⟨9, _⟩ => ⟨S1x16, .f32⟩
  | .hbm, ⟨10, _⟩ => ⟨S16384x16, .f32⟩
  | .local _ .vmem, ⟨0, _⟩ => ⟨S4096x512, .f32⟩
  | .local _ .vmem, ⟨1, _⟩ => ⟨S4096x512, .f32⟩
  | .local _ .vmem, ⟨2, _⟩ => ⟨S512x256, .f32⟩
  | .local _ .vmem, ⟨3, _⟩ => ⟨S1x256, .f32⟩
  | .local _ .vmem, ⟨4, _⟩ => ⟨S256x256, .f32⟩
  | .local _ .vmem, ⟨5, _⟩ => ⟨S1x256, .f32⟩
  | .local _ .vmem, ⟨6, _⟩ => ⟨S256x16, .f32⟩
  | .local _ .vmem, ⟨7, _⟩ => ⟨S1x16, .f32⟩
  | .local _ .vmem, ⟨8, _⟩ => ⟨S4096x16, .f32⟩
  | .local _ .vmem, ⟨9, _⟩ => ⟨S4096x16, .f32⟩
  | .local _ .vmem, ⟨10, _⟩ => ⟨S512x256, .f32⟩
  | .local _ .vmem, ⟨11, _⟩ => ⟨S1x256, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S4096x16 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S256_S1x256 : S256.ShapeCasts S1x256
  shapeCasts_S16_S1x16 : S16.ShapeCasts S1x16
  inb_S256x256_S256x256_0_0 : ∀ a, (![0, 0] : Fin 2 → Nat) a + S256x256.size a ≤ S256x256.size a
  h_S256x256 : 0 < S256x256.numel
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  inb_S4096x512_S4096x512_0_0 : ∀ a, (![0, 0] : Fin 2 → Nat) a + S4096x512.size a ≤ S4096x512.size a
  h_S4096x512 : 0 < S4096x512.numel
  broadcasts_S1x256_S4096x256 : S1x256.Broadcasts S4096x256
  inb_S256x16_S256x16_0_0 : ∀ a, (![0, 0] : Fin 2 → Nat) a + S256x16.size a ≤ S256x16.size a
  h_S256x16 : 0 < S256x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S4096x16 : S1x16.Broadcasts S4096x16
  inb_S4096x16_S4096x16_0_0 : ∀ a, (![0, 0] : Fin 2 → Nat) a + S4096x16.size a ≤ S4096x16.size a
  h_S4096x16 : 0 < S4096x16.numel
  dot_S512x256_S256x256_S512x256_1_0_0_1_n_n_wf : DotDims.WF S512x256 S256x256 S512x256 [1] [0] [0] [1] [] []
  dot_S1x256_S256x256_S1x256_1_0_0_1_n_n_wf : DotDims.WF S1x256 S256x256 S1x256 [1] [0] [0] [1] [] []
  dot_S4096x512_S512x256_S4096x256_1_0_0_1_n_n_wf : DotDims.WF S4096x512 S512x256 S4096x256 [1] [0] [0] [1] [] []
  dot_S4096x256_S256x16_S4096x16_1_0_0_1_n_n_wf : DotDims.WF S4096x256 S256x16 S4096x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x512.size a ≤ S16384x512.size a
  hwx0_0 : ∀ i : grid0.Coords, EltTy.bits .f32 = 32 ∨ (Rect.block (s := S16384x512) S4096x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .f32 = 32 ∨ (Rect.block (s := S512x256) S512x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x16.size a ≤ S256x16.size a
  hwx0_5 : ∀ i : grid0.Coords, EltTy.bits .f32 = 32 ∨ (Rect.block (s := S256x16) S256x16.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x16.size a ≤ S1x16.size a
  hwx0_6 : ∀ i : grid0.Coords, EltTy.bits .f32 = 32 ∨ (Rect.block (s := S1x16) S1x16.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S4096x16.size a ≤ S16384x16.size a
  hwx0_7 : ∀ i : grid0.Coords, EltTy.bits .f32 = 32 ∨ (Rect.block (s := S16384x16) S4096x16.size (cc0_transform_7 i) (hinb0_7 i)).WholeWords (EltTy.packing .f32)

variable [Facts₀]

def dot_S512x256_S256x256_S512x256_1_0_0_1_n_n : DotDims S512x256 S256x256 S512x256 where
  lhsContracting := [1]
  rhsContracting := [0]
  lhsNonContracting := [0]
  rhsNonContracting := [1]
  lhsBatch := []
  rhsBatch := []
  wf := dot_S512x256_S256x256_S512x256_1_0_0_1_n_n_wf
def dot_S1x256_S256x256_S1x256_1_0_0_1_n_n : DotDims S1x256 S256x256 S1x256 where
  lhsContracting := [1]
  rhsContracting := [0]
  lhsNonContracting := [0]
  rhsNonContracting := [1]
  lhsBatch := []
  rhsBatch := []
  wf := dot_S1x256_S256x256_S1x256_1_0_0_1_n_n_wf
def dot_S4096x512_S512x256_S4096x256_1_0_0_1_n_n : DotDims S4096x512 S512x256 S4096x256 where
  lhsContracting := [1]
  rhsContracting := [0]
  lhsNonContracting := [0]
  rhsNonContracting := [1]
  lhsBatch := []
  rhsBatch := []
  wf := dot_S4096x512_S512x256_S4096x256_1_0_0_1_n_n_wf
def dot_S4096x256_S256x16_S4096x16_1_0_0_1_n_n : DotDims S4096x256 S256x16 S4096x16 where
  lhsContracting := [1]
  rhsContracting := [0]
  lhsNonContracting := [0]
  rhsNonContracting := [1]
  lhsBatch := []
  rhsBatch := []
  wf := dot_S4096x256_S256x16_S4096x16_1_0_0_1_n_n_wf

abbrev win0_0 : Pipeline.Window sig grid0 :=
  Pipeline.Window.ofSpec (Memref.whole main_arg0) S4096x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S256x16.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1x16.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3) S4096x16.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S16384x512 : Shape := ⟨2, ![16384, 512]⟩
abbrev S512x256 : Shape := ⟨2, ![512, 256]⟩
abbrev S256 : Shape := ⟨1, ![256]⟩
abbrev S256x256 : Shape := ⟨2, ![256, 256]⟩
abbrev S256x16 : Shape := ⟨2, ![256, 16]⟩
abbrev S16 : Shape := ⟨1, ![16]⟩
abbrev S16384x256 : Shape := ⟨2, ![16384, 256]⟩
abbrev S1x256 : Shape := ⟨2, ![1, 256]⟩
abbrev S_ : Shape := ⟨0, ![]⟩
abbrev S16384x16 : Shape := ⟨2, ![16384, 16]⟩
abbrev S1x16 : Shape := ⟨2, ![1, 16]⟩

abbrev nBuf : Space → Nat
  | .hbm => 22
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S512x256, .f32⟩
  | .hbm, ⟨2, _⟩ => ⟨S256, .f32⟩
  | .hbm, ⟨3, _⟩ => ⟨S256x256, .f32⟩
  | .hbm, ⟨4, _⟩ => ⟨S256, .f32⟩
  | .hbm, ⟨5, _⟩ => ⟨S256x16, .f32⟩
  | .hbm, ⟨6, _⟩ => ⟨S16, .f32⟩
  | .hbm, ⟨7, _⟩ => ⟨S16384x256, .f32⟩
  | .hbm, ⟨8, _⟩ => ⟨S1x256, .f32⟩
  | .hbm, ⟨9, _⟩ => ⟨S16384x256, .f32⟩
  | .hbm, ⟨10, _⟩ => ⟨S16384x256, .f32⟩
  | .hbm, ⟨11, _⟩ => ⟨S16384x256, .f32⟩
  | .hbm, ⟨12, _⟩ => ⟨S1x256, .f32⟩
  | .hbm, ⟨13, _⟩ => ⟨S16384x256, .f32⟩
  | .hbm, ⟨14, _⟩ => ⟨S16384x256, .f32⟩
  | .hbm, ⟨15, _⟩ => ⟨S_, .f32⟩
  | .hbm, ⟨16, _⟩ => ⟨S16384x256, .f32⟩
  | .hbm, ⟨17, _⟩ => ⟨S16384x256, .f32⟩
  | .hbm, ⟨18, _⟩ => ⟨S16384x16, .f32⟩
  | .hbm, ⟨19, _⟩ => ⟨S1x16, .f32⟩
  | .hbm, ⟨20, _⟩ => ⟨S16384x16, .f32⟩
  | .hbm, ⟨21, _⟩ => ⟨S16384x16, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_call0_cst : Ref sig .tc := ⟨.hbm, 15, rfl⟩
abbrev main_call0_v0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S16384x256_0_1 : S1x256.BroadcastsInDim S16384x256 (![0, 1] : Fin 2 → Fin S16384x256.rank)
  bcast_S_S16384x256 : S_.BroadcastsInDim S16384x256 (![] : Fin 0 → Fin S16384x256.rank)
  bcast_S16_S1x16_1 : S16.BroadcastsInDim S1x16 (![1] : Fin 1 → Fin S1x16.rank)
  bcast_S1x16_S16384x16_0_1 : S1x16.BroadcastsInDim S16384x16 (![0, 1] : Fin 2 → Fin S16384x16.rank)
  dot_S16384x512_S512x256_S16384x256_1_0_0_1_n_n_wf : DotDims.WF S16384x512 S512x256 S16384x256 [1] [0] [0] [1] [] []
  dot_S16384x256_S256x256_S16384x256_1_0_0_1_n_n_wf : DotDims.WF S16384x256 S256x256 S16384x256 [1] [0] [0] [1] [] []
  dot_S16384x256_S256x16_S16384x16_1_0_0_1_n_n_wf : DotDims.WF S16384x256 S256x16 S16384x16 [1] [0] [0] [1] [] []

variable [Facts₀]

def dot_S16384x512_S512x256_S16384x256_1_0_0_1_n_n : DotDims S16384x512 S512x256 S16384x256 where
  lhsContracting := [1]
  rhsContracting := [0]
  lhsNonContracting := [0]
  rhsNonContracting := [1]
  lhsBatch := []
  rhsBatch := []
  wf := dot_S16384x512_S512x256_S16384x256_1_0_0_1_n_n_wf
def dot_S16384x256_S256x256_S16384x256_1_0_0_1_n_n : DotDims S16384x256 S256x256 S16384x256 where
  lhsContracting := [1]
  rhsContracting := [0]
  lhsNonContracting := [0]
  rhsNonContracting := [1]
  lhsBatch := []
  rhsBatch := []
  wf := dot_S16384x256_S256x256_S16384x256_1_0_0_1_n_n_wf
def dot_S16384x256_S256x16_S16384x16_1_0_0_1_n_n : DotDims S16384x256 S256x16 S16384x16 where
  lhsContracting := [1]
  rhsContracting := [0]
  lhsNonContracting := [0]
  rhsNonContracting := [1]
  lhsBatch := []
  rhsBatch := []
  wf := dot_S16384x256_S256x16_S16384x16_1_0_0_1_n_n_wf

class Facts : Prop extends Facts₀ where

variable [Facts]
-- ==== Proof.LibFiniteEntry.lean ====
/-
  An entry that passes the test "its absolute value is below +∞" is a real number.

  A finiteness precondition prints, per float array, as: every entry's absolute value compares below the word of `+∞`.
  On the extended reals the absolute value is `max a (−a)`, the word `0x7F800000` denotes `⊤`, and `max a (−a) < ⊤`
  excludes both `⊤` and `⊥`: the entry is a real number (`real_of_abs_lt_top`). The all-true test over a whole array
  reduces to one index of a rank-0 result, which has a single index (the `Subsingleton` instance).
-/
import Idealize.ShloMosaic.PureOps.Ideal
import Idealize.ShloMosaic.PureOps.Ideal.Laws

noncomputable section

namespace Cert.FiniteEntry

open Idealize.ShloMosaic

/-- The f32 word of `+∞` denotes `⊤`. -/
theorem ofBits_inf : Ideal.ofBits .f32 0x7F800000#32 = (⊤ : EReal) := by
  simp [Ideal.ofBits, Ideal.ieee]

/-- An extended real whose absolute value compares below `+∞` is a real number. -/
theorem real_of_abs_lt_top (a : EReal)
    (h : FloatOps.cmpf (F := Ideal) (φ := .f32) .olt (FloatOps.absf (F := Ideal) (φ := .f32) a)
      (FloatOps.ofBits (F := Ideal) .f32 0x7F800000#32) = 1#1) :
    ∃ r : ℝ, a = (r : EReal) := by
  rw [Ideal.cmpf_def, Ideal.absf_def, Ideal.ofBits_def, ofBits_inf] at h
  have hlt : max a (-a) < ⊤ := by
    by_contra hn
    simp [Ideal.cmp, hn] at h
  induction a using EReal.rec with
  | bot => simp at hlt
  | top => simp at hlt
  | coe r => exact ⟨r, rfl⟩

/-- A rank-0 array has one index. -/
instance : Subsingleton (⟨0, ![]⟩ : Shape).Idx := ⟨fun a b => funext fun d => d.elim0⟩

end Cert.FiniteEntry

end
-- ==== Proof.Finite.lean ====
/-
  The precondition, read: every entry of every argument array is a real number.

  The precondition is the conjunction, over the seven arrays, of "every entry's absolute value is below the word of
  +∞". A conjunction of one-bit words is 1 exactly when both are; an all-true test over an array is 1 only if the test
  is 1 at every index; and an extended real whose absolute value is below ⊤ is a real number.
-/
import proofs.«133179_g50646254354566_cont_8to1c4_339_32_alg».proof.Pre_finite_inputs
import proofs.«133179_g50646254354566_cont_8to1c4_339_32_alg».proof.Proof.LibFiniteEntry
import Idealize.ShloMosaic.Lib.ReduceAll
import Idealize.ShloMosaic.Lib.ValueIdx

noncomputable section

namespace Cert.FiniteInputs

open Idealize.ShloMosaic Idealize.ShloMosaic.ValueIdx Cert.Pre_finite_inputs

variable [Cert.Pre_finite_inputs.Facts]
open Cert.Pre_finite_inputs.Facts

/-- One array's all-true test being 1 makes every entry of the array a real number. -/
theorem entries_real {s : Shape} {axes : List (Fin s.rank)} (x : FVec Ideal s .f32)
    (hb : S_.BroadcastsInDim s (![] : Fin 0 → Fin s.rank)) (hr : s.ReducesTo axes S_) (hu : 0 < S_.numel)
    (e : Host.reduce IntOp.andi (cmpf .olt (Host.absf x) (broadcastInDim s ![] hb (constant (F := Ideal) S_ .f32 0x7F800000#32)))
      (constantI S_ 1 1#1) hr hu ix0 = 1#1) (i : s.Idx) : ∃ v : ℝ, x i = (v : EReal) :=
  Cert.FiniteEntry.real_of_abs_lt_top (x i) (Host.reduce_andi_all _ _ hr hu ix0 e i)

/-- The precondition holding of seven arrays makes every entry of each a real number. -/
theorem all_real (x0 : FVec Ideal S16384x512 .f32) (x1 : FVec Ideal S512x256 .f32) (x2 : FVec Ideal S256 .f32)
    (x3 : FVec Ideal S256x256 .f32) (x4 : FVec Ideal S256 .f32) (x5 : FVec Ideal S256x16 .f32) (x6 : FVec Ideal S16 .f32)
    (h : fn (F := Ideal) x0 x1 x2 x3 x4 x5 x6 = fun _ => 1#1) :
    (∀ i, ∃ v : ℝ, x0 i = (v : EReal)) ∧ (∀ i, ∃ v : ℝ, x1 i = (v : EReal)) ∧ (∀ i, ∃ v : ℝ, x2 i = (v : EReal))
      ∧ (∀ i, ∃ v : ℝ, x3 i = (v : EReal)) ∧ (∀ i, ∃ v : ℝ, x4 i = (v : EReal)) ∧ (∀ i, ∃ v : ℝ, x5 i = (v : EReal))
      ∧ (∀ i, ∃ v : ℝ, x6 i = (v : EReal)) := by
  have h0 := congrFun h ix0
  obtain ⟨h1, e6⟩ := IntOp.andi_eq_one.1 h0
  obtain ⟨h2, e5⟩ := IntOp.andi_eq_one.1 h1
  obtain ⟨h3, e4⟩ := IntOp.andi_eq_one.1 h2
  obtain ⟨h4, e3⟩ := IntOp.andi_eq_one.1 h3
  obtain ⟨h5, e2⟩ := IntOp.andi_eq_one.1 h4
  obtain ⟨e0, e1⟩ := IntOp.andi_eq_one.1 h5
  exact ⟨entries_real x0 _ _ _ e0, entries_real x1 _ _ _ e1, entries_real x2 _ _ _ e2, entries_real x3 _ _ _ e3,
    entries_real x4 _ _ _ e4, entries_real x5 _ _ _ e5, entries_real x6 _ _ _ e6⟩

end Cert.FiniteInputs

end
-- ==== Proof.Pieces.lean ====
/-
  What each control case of the kernel body leaves in its three written buffers, as values.

  The body has two cases. At the grid's first point it first forms the product of the first two weight matrices and
  the first bias pushed through the second layer, stores both into scratch, and then computes its output block from
  those two stores read back. At every later point it stores nothing into scratch and computes its output block from
  what scratch already holds. Each buffer is written by one store covering it whole, so what it holds afterwards is
  that store's value: a function of the whole buffers the body loaded.
-/
import proofs.«133179_g50646254354566_cont_8to1c4_339_32_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen
open Idealize.ShloMosaic Idealize.ShloMosaic.TcCoe Idealize.ShloMosaic.Tactic Idealize.SL.Sem

variable {F : FTy → Type} [FloatOps F]

theorem hz : (![0, 0] : Fin 2 → Nat) = fun _ => 0 := funext fun a => by fin_cases a <;> rfl

/-- First point: the weight scratch ends holding the product of the loaded weight matrices (`x1` times `x3`). -/
theorem weightScratch_first (c : Dev nD) (i : grid0.Coords) (a1 : Memref sig .tc .vmem S4096x512 .f32) (h1 : a1.IsWhole) (a2 : Memref sig .tc .vmem S512x256 .f32) (h2 : a2.IsWhole) (a3 : Memref sig .tc .vmem S1x256 .f32) (h3 : a3.IsWhole) (a4 : Memref sig .tc .vmem S256x256 .f32) (h4 : a4.IsWhole) (a5 : Memref sig .tc .vmem S1x256 .f32) (h5 : a5.IsWhole) (a6 : Memref sig .tc .vmem S256x16 .f32) (h6 : a6.IsWhole) (a7 : Memref sig .tc .vmem S1x16 .f32) (h7 : a7.IsWhole) (a8 : Memref sig .tc .vmem S4096x16 .f32) (h8 : a8.IsWhole) (a9 : Memref sig .tc .vmem S512x256 .f32) (h9 : a9.IsWhole) (a10 : Memref sig .tc .vmem S1x256 .f32) (h10 : a10.IsWhole) (hc : cond0_0 i) (x0 : Vec F S4096x512 .f32) (x1 : Vec F S512x256 .f32) (x2 : Vec F S1x256 .f32) (x3 : Vec F S256x256 .f32) (x4 : Vec F S1x256 .f32) (x5 : Vec F S256x16 .f32) (x6 : Vec F S1x16 .f32) :
    sout0_A_0 c i a1 h1 a2 h2 a3 h3 a4 h4 a5 h5 a6 h6 a7 h7 a8 h8 a9 h9 a10 h10 hc x0 x1 x2 x3 x4 x5 x6 = k0_pay1 x3 x1 := by
  unfold sout0_A_0
  rw [View.read_writes_eq_canon _ _ _ (scover0_A_0 c i a1 h1 a2 h2 a3 h3 a4 h4 a5 h5 a6 h6 a7 h7 a8 h8 a9 h9 a10 h10 hc x0 x1 x2 x3 x4 x5 x6)]
  unfold kernelRun0_A
  dsimp only
  sl_unfold_words
  rw [View.canon_unit_zero hz]
  simp only [View.readAt_eq_ld, h4.read_unread, h2.read_unread, View.ld_unit_zero (S := S256x256) hz,
    View.ld_unit_zero (S := S512x256) hz]

/-- First point: the bias scratch ends holding the first bias row (`x2`) times the second weight matrix (`x3`) plus
    the second bias row (`x4`). -/
theorem biasScratch_first (c : Dev nD) (i : grid0.Coords) (a1 : Memref sig .tc .vmem S4096x512 .f32) (h1 : a1.IsWhole) (a2 : Memref sig .tc .vmem S512x256 .f32) (h2 : a2.IsWhole) (a3 : Memref sig .tc .vmem S1x256 .f32) (h3 : a3.IsWhole) (a4 : Memref sig .tc .vmem S256x256 .f32) (h4 : a4.IsWhole) (a5 : Memref sig .tc .vmem S1x256 .f32) (h5 : a5.IsWhole) (a6 : Memref sig .tc .vmem S256x16 .f32) (h6 : a6.IsWhole) (a7 : Memref sig .tc .vmem S1x16 .f32) (h7 : a7.IsWhole) (a8 : Memref sig .tc .vmem S4096x16 .f32) (h8 : a8.IsWhole) (a9 : Memref sig .tc .vmem S512x256 .f32) (h9 : a9.IsWhole) (a10 : Memref sig .tc .vmem S1x256 .f32) (h10 : a10.IsWhole) (hc : cond0_0 i) (x0 : Vec F S4096x512 .f32) (x1 : Vec F S512x256 .f32) (x2 : Vec F S1x256 .f32) (x3 : Vec F S256x256 .f32) (x4 : Vec F S1x256 .f32) (x5 : Vec F S256x16 .f32) (x6 : Vec F S1x16 .f32) :
    sout0_A_1 c i a1 h1 a2 h2 a3 h3 a4 h4 a5 h5 a6 h6 a7 h7 a8 h8 a9 h9 a10 h10 hc x0 x1 x2 x3 x4 x5 x6 = k0_pay2 x3 x2 x4 := by
  unfold sout0_A_1
  rw [View.read_writes_eq_canon _ _ _ (scover0_A_1 c i a1 h1 a2 h2 a3 h3 a4 h4 a5 h5 a6 h6 a7 h7 a8 h8 a9 h9 a10 h10 hc x0 x1 x2 x3 x4 x5 x6)]
  unfold kernelRun0_A
  dsimp only
  sl_unfold_words
  rw [View.canon_unit_zero hz]
  simp only [View.readAt_eq_ld, h4.read_unread, h3.read_unread, h5.read_unread, View.ld_unit_zero (S := S256x256) hz,
    View.ld_unit_zero (S := S1x256) hz]

/-- First point: the output block is the streamed computation over the two scratch values just stored. -/
theorem outBlock_first (c : Dev nD) (i : grid0.Coords) (a1 : Memref sig .tc .vmem S4096x512 .f32) (h1 : a1.IsWhole) (a2 : Memref sig .tc .vmem S512x256 .f32) (h2 : a2.IsWhole) (a3 : Memref sig .tc .vmem S1x256 .f32) (h3 : a3.IsWhole) (a4 : Memref sig .tc .vmem S256x256 .f32) (h4 : a4.IsWhole) (a5 : Memref sig .tc .vmem S1x256 .f32) (h5 : a5.IsWhole) (a6 : Memref sig .tc .vmem S256x16 .f32) (h6 : a6.IsWhole) (a7 : Memref sig .tc .vmem S1x16 .f32) (h7 : a7.IsWhole) (a8 : Memref sig .tc .vmem S4096x16 .f32) (h8 : a8.IsWhole) (a9 : Memref sig .tc .vmem S512x256 .f32) (h9 : a9.IsWhole) (a10 : Memref sig .tc .vmem S1x256 .f32) (h10 : a10.IsWhole) (hc : cond0_0 i) (x0 : Vec F S4096x512 .f32) (x1 : Vec F S512x256 .f32) (x2 : Vec F S1x256 .f32) (x3 : Vec F S256x256 .f32) (x4 : Vec F S1x256 .f32) (x5 : Vec F S256x16 .f32) (x6 : Vec F S1x16 .f32) :
    out0_A_7 c i a1 h1 a2 h2 a3 h3 a4 h4 a5 h5 a6 h6 a7 h7 a8 h8 a9 h9 a10 h10 hc x0 x1 x2 x3 x4 x5 x6 = k0_pay3 x0 (k0_pay1 x3 x1) (k0_pay2 x3 x2 x4) x5 x6 := by
  unfold out0_A_7
  rw [View.read_writes_eq_canon _ _ _ (cover0_A_7 c i a1 h1 a2 h2 a3 h3 a4 h4 a5 h5 a6 h6 a7 h7 a8 h8 a9 h9 a10 h10 hc x0 x1 x2 x3 x4 x5 x6)]
  unfold kernelRun0_A
  dsimp only
  sl_unfold_words
  rw [View.canon_unit_zero (S := S4096x16) hz, View.readCov_unit_zero (S := S512x256) _ hz,
    View.readCov_unit_zero (S := S1x256) _ hz]
  simp only [View.readAt_eq_ld, h1.read_unread, h2.read_unread, h3.read_unread, h4.read_unread, h5.read_unread,
    h6.read_unread, h7.read_unread, View.ld_unit_zero (S := S4096x512) hz, View.ld_unit_zero (S := S256x256) hz,
    View.ld_unit_zero (S := S512x256) hz, View.ld_unit_zero (S := S1x256) hz, View.ld_unit_zero (S := S256x16) hz,
    View.ld_unit_zero (S := S1x16) hz]

/-- A later point: the output block is the streamed computation over what scratch holds (`xs0`, `xs1`). -/
theorem outBlock_later (c : Dev nD) (i : grid0.Coords) (a1 : Memref sig .tc .vmem S4096x512 .f32) (h1 : a1.IsWhole) (a2 : Memref sig .tc .vmem S512x256 .f32) (h2 : a2.IsWhole) (a3 : Memref sig .tc .vmem S1x256 .f32) (h3 : a3.IsWhole) (a4 : Memref sig .tc .vmem S256x256 .f32) (h4 : a4.IsWhole) (a5 : Memref sig .tc .vmem S1x256 .f32) (h5 : a5.IsWhole) (a6 : Memref sig .tc .vmem S256x16 .f32) (h6 : a6.IsWhole) (a7 : Memref sig .tc .vmem S1x16 .f32) (h7 : a7.IsWhole) (a8 : Memref sig .tc .vmem S4096x16 .f32) (h8 : a8.IsWhole) (a9 : Memref sig .tc .vmem S512x256 .f32) (h9 : a9.IsWhole) (a10 : Memref sig .tc .vmem S1x256 .f32) (h10 : a10.IsWhole) (hc : ¬cond0_0 i) (x0 : Vec F S4096x512 .f32) (x1 : Vec F S512x256 .f32) (x2 : Vec F S1x256 .f32) (x3 : Vec F S256x256 .f32) (x4 : Vec F S1x256 .f32) (x5 : Vec F S256x16 .f32) (x6 : Vec F S1x16 .f32)
    (xs0 : Vec F S512x256 .f32) (xs1 : Vec F S1x256 .f32) :
    out0_B_7 c i a1 h1 a2 h2 a3 h3 a4 h4 a5 h5 a6 h6 a7 h7 a8 h8 a9 h9 a10 h10 hc x0 x1 x2 x3 x4 x5 x6 xs0 xs1 = k0_pay3 x0 xs0 xs1 x5 x6 := by
  unfold out0_B_7
  rw [View.read_writes_eq_canon _ _ _ (cover0_B_7 c i a1 h1 a2 h2 a3 h3 a4 h4 a5 h5 a6 h6 a7 h7 a8 h8 a9 h9 a10 h10 hc x0 x1 x2 x3 x4 x5 x6 xs0 xs1)]
  unfold kernelRun0_B
  dsimp only
  sl_unfold_words
  rw [View.canon_unit_zero (S := S4096x16) hz]
  simp only [View.readAt_eq_ld, h1.read_unread, h6.read_unread, h7.read_unread, h9.read_unread, h10.read_unread,
    View.ld_unit_zero (S := S4096x512) hz, View.ld_unit_zero (S := S512x256) hz, View.ld_unit_zero (S := S1x256) hz,
    View.ld_unit_zero (S := S256x16) hz, View.ld_unit_zero (S := S1x16) hz]

end Cert.KernelIdeal.Pieces

end
-- ==== Proof.Blocks.lean ====
/-
  What each window's block holds, read off its array.

  The first window streams the input's rows: at grid point `t` its block is rows `4096·t … 4096·t + 4095`, all columns.
  The six parameter windows never move: their block is their whole array at every point. Three of those arrays are
  written by the program before the kernel is launched, each a bias vector laid as one row.
-/
import proofs.«133179_g50646254354566_cont_8to1c4_339_32_alg».proof.Proof.Gen.KernelIdeal.Frame
import Idealize.ShloMosaic.Lib.Pipeline.Value
import Idealize.ShloMosaic.Lib.StableHlo.Run
import Idealize.ShloMosaic.Lib.ValueIdx
import Idealize.ShloMosaic.Lib.ValueLayout

noncomputable section

namespace Cert.KernelIdeal.Blocks

open Cert.KernelIdeal Cert.KernelIdeal.Gen
open Idealize.ShloMosaic Idealize.ShloMosaic.TcCoe Idealize.SL.Sem Idealize.ShloMosaic.ValueIdx Idealize.ShloMosaic.StableHlo

variable {F : FTy → Type} [FloatOps F]
variable (m : (ℓ : Loc nD τ sig) → Buf (Elt F) ℓ)

/-- The printed index maps over the four grid points: the input's and the output's block row index is the point's
    number, every other block index is zero. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

/-- The input window's block at point `t`, row `p`, is the array's row `4096·t + p`. -/
theorem block0_apply (c : Dev nD) (t : Fin cfg0.N) (p : Fin 4096) (f : Fin 512) (r : Fin 16384)
    (hr : r.val = t.val * 4096 + p.val) :
    (iblk m c 0 t : Vec F S4096x512 .f32) (ix2 p f) = V m c main_arg0 (ix2 r f) := by
  obtain ⟨e0, e1, -, -, -, -, -, -, -, -, -, -, -, -, -, -⟩ := idx_facts t
  unfold iblk
  rw [View.read_apply]
  show V m c main_arg0 (((cfg0.win 0).blk t).view.emb (ix2 p f)) = V m c main_arg0 (ix2 r f)
  refine congrArg (V m c main_arg0) (funext fun a => Fin.ext ?_)
  match a with
  | ⟨0, _⟩ => show win0_0.index t (0 : Fin 2) * 4096 + 1 * p.val = r.val; omega
  | ⟨1, _⟩ => show win0_0.index t (1 : Fin 2) * 512 + 1 * f.val = f.val; omega

/-- Window 1's block is its whole array at every point: its block index never moves from `(0, 0)`. -/
theorem block1 (c : Dev nD) (t : Fin cfg0.N) : (iblk m c 1 t : Vec F S512x256 .f32) = V m c main_arg1 := by
  obtain ⟨-, -, e0, e1, -, -, -, -, -, -, -, -, -, -, -, -⟩ := idx_facts t
  funext y
  unfold iblk
  rw [View.read_apply]
  show V m c main_arg1 (((cfg0.win 1).blk t).view.emb y) = V m c main_arg1 y
  refine congrArg (V m c main_arg1) (funext fun a => Fin.ext ?_)
  match a with
  | ⟨0, _⟩ => show win0_1.index t (0 : Fin 2) * 512 + 1 * (y 0).val = (y 0).val; omega
  | ⟨1, _⟩ => show win0_1.index t (1 : Fin 2) * 256 + 1 * (y 1).val = (y 1).val; omega

/-- Window 2's block is its whole array at every point: its block index never moves from `(0, 0)`. -/
theorem block2 (c : Dev nD) (t : Fin cfg0.N) : (iblk m c 2 t : Vec F S1x256 .f32) = V m c main_v0 := by
  obtain ⟨-, -, -, -, e0, e1, -, -, -, -, -, -, -, -, -, -⟩ := idx_facts t
  funext y
  unfold iblk
  rw [View.read_apply]
  show V m c main_v0 (((cfg0.win 2).blk t).view.emb y) = V m c main_v0 y
  refine congrArg (V m c main_v0) (funext fun a => Fin.ext ?_)
  match a with
  | ⟨0, _⟩ => show win0_2.index t (0 : Fin 2) * 1 + 1 * (y 0).val = (y 0).val; omega
  | ⟨1, _⟩ => show win0_2.index t (1 : Fin 2) * 256 + 1 * (y 1).val = (y 1).val; omega

/-- Window 3's block is its whole array at every point: its block index never moves from `(0, 0)`. -/
theorem block3 (c : Dev nD) (t : Fin cfg0.N) : (iblk m c 3 t : Vec F S256x256 .f32) = V m c main_arg3 := by
  obtain ⟨-, -, -, -, -, -, e0, e1, -, -, -, -, -, -, -, -⟩ := idx_facts t
  funext y
  unfold iblk
  rw [View.read_apply]
  show V m c main_arg3 (((cfg0.win 3).blk t).view.emb y) = V m c main_arg3 y
  refine congrArg (V m c main_arg3) (funext fun a => Fin.ext ?_)
  match a with
  | ⟨0, _⟩ => show win0_3.index t (0 : Fin 2) * 256 + 1 * (y 0).val = (y 0).val; omega
  | ⟨1, _⟩ => show win0_3.index t (1 : Fin 2) * 256 + 1 * (y 1).val = (y 1).val; omega

/-- Window 4's block is its whole array at every point: its block index never moves from `(0, 0)`. -/
theorem block4 (c : Dev nD) (t : Fin cfg0.N) : (iblk m c 4 t : Vec F S1x256 .f32) = V m c main_v1 := by
  obtain ⟨-, -, -, -, -, -, -, -, e0, e1, -, -, -, -, -, -⟩ := idx_facts t
  funext y
  unfold iblk
  rw [View.read_apply]
  show V m c main_v1 (((cfg0.win 4).blk t).view.emb y) = V m c main_v1 y
  refine congrArg (V m c main_v1) (funext fun a => Fin.ext ?_)
  match a with
  | ⟨0, _⟩ => show win0_4.index t (0 : Fin 2) * 1 + 1 * (y 0).val = (y 0).val; omega
  | ⟨1, _⟩ => show win0_4.index t (1 : Fin 2) * 256 + 1 * (y 1).val = (y 1).val; omega

/-- Window 5's block is its whole array at every point: its block index never moves from `(0, 0)`. -/
theorem block5 (c : Dev nD) (t : Fin cfg0.N) : (iblk m c 5 t : Vec F S256x16 .f32) = V m c main_arg5 := by
  obtain ⟨-, -, -, -, -, -, -, -, -, -, e0, e1, -, -, -, -⟩ := idx_facts t
  funext y
  unfold iblk
  rw [View.read_apply]
  show V m c main_arg5 (((cfg0.win 5).blk t).view.emb y) = V m c main_arg5 y
  refine congrArg (V m c main_arg5) (funext fun a => Fin.ext ?_)
  match a with
  | ⟨0, _⟩ => show win0_5.index t (0 : Fin 2) * 256 + 1 * (y 0).val = (y 0).val; omega
  | ⟨1, _⟩ => show win0_5.index t (1 : Fin 2) * 16 + 1 * (y 1).val = (y 1).val; omega

/-- Window 6's block is its whole array at every point: its block index never moves from `(0, 0)`. -/
theorem block6 (c : Dev nD) (t : Fin cfg0.N) : (iblk m c 6 t : Vec F S1x16 .f32) = V m c main_v2 := by
  obtain ⟨-, -, -, -, -, -, -, -, -, -, -, -, e0, e1, -, -⟩ := idx_facts t
  funext y
  unfold iblk
  rw [View.read_apply]
  show V m c main_v2 (((cfg0.win 6).blk t).view.emb y) = V m c main_v2 y
  refine congrArg (V m c main_v2) (funext fun a => Fin.ext ?_)
  match a with
  | ⟨0, _⟩ => show win0_6.index t (0 : Fin 2) * 1 + 1 * (y 0).val = (y 0).val; omega
  | ⟨1, _⟩ => show win0_6.index t (1 : Fin 2) * 16 + 1 * (y 1).val = (y 1).val; omega

/-! ## The three arrays written before the launch: a bias vector laid as one row -/

/-- The first bias as the kernel's third operand: the vector cast to one row. -/
theorem row_bp (c : Dev nD) (k : Fin 256) :
    (V m c main_v0 : S1x256.Idx → Elt F .f32) (ix2 (0 : Fin 1) k) = m ((c : Thread nD τ).loc main_arg2) (ix1 k) := by
  have e : (V m c main_v0 : S1x256.Idx → Elt F .f32)
      = shapeCast S1x256 (m ((c : Thread nD τ).loc main_arg2)) shapeCasts_S256_S1x256 := by
    dsimp only [V, hostOps0]; after_results; rfl
  rw [e]
  exact shapeCast_a_1a_apply _ _ (0 : Fin 1) k

/-- The second bias as the kernel's fifth operand: the vector cast to one row. -/
theorem row_b1 (c : Dev nD) (k : Fin 256) :
    (V m c main_v1 : S1x256.Idx → Elt F .f32) (ix2 (0 : Fin 1) k) = m ((c : Thread nD τ).loc main_arg4) (ix1 k) := by
  have e : (V m c main_v1 : S1x256.Idx → Elt F .f32)
      = shapeCast S1x256 (m ((c : Thread nD τ).loc main_arg4)) shapeCasts_S256_S1x256 := by
    dsimp only [V, hostOps0]; after_results; rfl
  rw [e]
  exact shapeCast_a_1a_apply _ _ (0 : Fin 1) k

/-- The last bias as the kernel's seventh operand: the vector cast to one row. -/
theorem row_b2 (c : Dev nD) (o : Fin 16) :
    (V m c main_v2 : S1x16.Idx → Elt F .f32) (ix2 (0 : Fin 1) o) = m ((c : Thread nD τ).loc main_arg6) (ix1 o) := by
  have e : (V m c main_v2 : S1x16.Idx → Elt F .f32)
      = shapeCast S1x16 (m ((c : Thread nD τ).loc main_arg6)) shapeCasts_S16_S1x16 := by
    dsimp only [V, hostOps0]; after_results; rfl
  rw [e]
  exact shapeCast_a_1a_apply _ _ (0 : Fin 1) o

end Cert.KernelIdeal.Blocks

end
-- ==== Proof.LibPlainMatmul.lean ====
/-
  A plain matrix product read at coordinates.

  For the plain contraction `[M, K] × [K, N] → [M, N]` (the left operand contracted on its second axis, the right on
  its first, no batch axis), accumulated into the zero matrix, the entry `(r, c)` of the result is
  `Σ_k lhs (r, k) · rhs (k, c)` on the extended reals, at any extents: the left operand is read on row `r`, the
  right on column `c`, and the one contraction coordinate `k` runs over `Fin K`.
-/
import Idealize.ShloMosaic.Lib.ValueIdx
import Idealize.ShloMosaic.PureOps.Ideal.Laws

namespace Cert.PlainMatmul

open Idealize.ShloMosaic Idealize.ShloMosaic.ValueIdx

variable {M K N : ℕ}

/-- The left operand's row coordinate is the result's row coordinate. -/
theorem lhs_row (j : (⟨2, ![M, N]⟩ : Shape).Idx) (q : (DotDims.plain M K N).contr.Idx) :
    ((DotDims.plain M K N).lhsIdx j q (0 : Fin (⟨2, ![M, K]⟩ : Shape).rank)).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from
      List.mem_singleton.mpr rfl)]
  rfl

/-- The right operand's column coordinate is the result's column coordinate. -/
theorem rhs_col (j : (⟨2, ![M, N]⟩ : Shape).Idx) (q : (DotDims.plain M K N).contr.Idx) :
    ((DotDims.plain M K N).rhsIdx j q (1 : Fin (⟨2, ![K, N]⟩ : Shape).rank)).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from
      List.mem_singleton.mpr rfl)]
  rfl

/-- The plain product into the zero matrix, at `(r, c)`: the sum over `k` of `lhs (r, k) · rhs (k, c)`. -/
theorem plain_apply {φ₁ φ₂ : FTy} (lhs : FVec Ideal ⟨2, ![M, K]⟩ φ₁) (rhs : FVec Ideal ⟨2, ![K, N]⟩ φ₂)
    (r : Fin M) (c : Fin N) :
    FloatOps.matmul (DotDims.plain M K N) none lhs rhs (constant ⟨2, ![M, N]⟩ .f32 0x00000000#32) (ix2 r c)
      = ∑ k : Fin K, lhs (ix2 r k) * rhs (ix2 k c) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r c) ((contrEquiv1 (DotDims.plain M K N) K rfl rfl).symm k) = ix2 r k :=
    funext fun a => Fin.ext (by
      match a with
      | ⟨0, _⟩ => exact lhs_row _ _
      | ⟨1, _⟩ => exact ((DotDims.plain M K N).lhsIdx_val_of_single rfl _ _).trans hk)
  have er : (DotDims.plain M K N).rhsIdx (ix2 r c) ((contrEquiv1 (DotDims.plain M K N) K rfl rfl).symm k) = ix2 k c :=
    funext fun a => Fin.ext (by
      match a with
      | ⟨0, _⟩ => exact ((DotDims.plain M K N).rhsIdx_val_of_single rfl _ _).trans hk
      | ⟨1, _⟩ => exact rhs_col _ _)
  rw [el, er]

end Cert.PlainMatmul
-- ==== Proof.Payload.lean ====
/-
  The three values the kernel body stores, read entry by entry on the extended reals.

  Each matrix product accumulates into the zero matrix, so its entry `(r, c)` is the plain sum
  `Σ_k lhs (r, k) · rhs (k, c)`. A shape cast to the same shape is the identity, a one-row matrix spread over many rows
  reads its row `0`, and the scalar zero spread over a matrix reads the zero word everywhere.
-/
import proofs.«133179_g50646254354566_cont_8to1c4_339_32_alg».proof.Proof.Gen.KernelIdeal.Skeleton
import proofs.«133179_g50646254354566_cont_8to1c4_339_32_alg».proof.Proof.LibPlainMatmul
import Idealize.ShloMosaic.Lib.Pipeline.Value
import Idealize.ShloMosaic.Lib.ValueIdx
import Idealize.ShloMosaic.Lib.ValueLayout

noncomputable section

namespace Cert.KernelIdeal.Payload

open Cert.KernelIdeal Cert.KernelIdeal.Gen
open Idealize.ShloMosaic Idealize.ShloMosaic.ValueIdx

/-- The weight scratch's value at `(f, j)`: the product of the first two weight matrices. -/
theorem weight_apply (w1 : FVec Ideal S256x256 .f32) (wp : FVec Ideal S512x256 .f32) (f : Fin 512) (j : Fin 256) :
    k0_pay1 (F := Ideal) w1 wp (ix2 f j) = ∑ k : Fin 256, wp (ix2 f k) * w1 (ix2 k j) := by
  unfold k0_pay1
  simp only [shapeCast_self]
  exact Cert.PlainMatmul.plain_apply wp w1 f j

/-- The bias scratch's value at `(0, j)`: the first bias row through the second layer, plus the second bias row. -/
theorem bias_apply (w1 : FVec Ideal S256x256 .f32) (bprow b1row : FVec Ideal S1x256 .f32) (j : Fin 256) :
    k0_pay2 (F := Ideal) w1 bprow b1row (ix2 (0 : Fin 1) j)
      = (∑ k : Fin 256, bprow (ix2 (0 : Fin 1) k) * w1 (ix2 k j)) + b1row (ix2 (0 : Fin 1) j) := by
  unfold k0_pay2
  simp only [shapeCast_self, addf_apply]
  exact congrArg (· + b1row (ix2 (0 : Fin 1) j)) (Cert.PlainMatmul.plain_apply bprow w1 (0 : Fin 1) j)

/-- The hidden layer the body forms from an input block `x0`, the weight scratch `we` and the bias scratch `be`, at
    `(p, j)`: the maximum of `Σ_f x0 (p, f) · we (f, j) + be (0, j)` and the zero word. -/
theorem hidden_apply (x0 : FVec Ideal S4096x512 .f32) (we : FVec Ideal S512x256 .f32) (be : FVec Ideal S1x256 .f32)
    (p : Fin 4096) (j : Fin 256) :
    maximumf (addf (matmul dot_S4096x512_S512x256_S4096x256_1_0_0_1_n_n none x0 we (constant S4096x256 .f32 0x00000000#32))
        (broadcastTo S4096x256 be broadcasts_S1x256_S4096x256))
      (broadcast S4096x256 (Scalar.ofBits (F := Ideal) .f32 0x00000000#32)) (ix2 p j)
      = max ((∑ f : Fin 512, x0 (ix2 p f) * we (ix2 f j)) + be (ix2 (0 : Fin 1) j)) (Ideal.ofBits .f32 0x00000000#32) := by
  rw [maximumf_apply, addf_apply, broadcast_apply, broadcastTo_1b_ab_apply]
  exact congrArg (fun z => max (z + be (ix2 (0 : Fin 1) j)) (Ideal.ofBits .f32 0x00000000#32))
    (Cert.PlainMatmul.plain_apply x0 we p j)

/-- The output block's value at `(p, o)`: the hidden layer's row `p` through the last weight matrix, plus the last
    bias row. -/
theorem out_apply (x0 : FVec Ideal S4096x512 .f32) (we : FVec Ideal S512x256 .f32) (be : FVec Ideal S1x256 .f32)
    (w2 : FVec Ideal S256x16 .f32) (b2row : FVec Ideal S1x16 .f32) (p : Fin 4096) (o : Fin 16) :
    k0_pay3 (F := Ideal) x0 we be w2 b2row (ix2 p o)
      = (∑ j : Fin 256, max ((∑ f : Fin 512, x0 (ix2 p f) * we (ix2 f j)) + be (ix2 (0 : Fin 1) j))
            (Ideal.ofBits .f32 0x00000000#32) * w2 (ix2 j o)) + b2row (ix2 (0 : Fin 1) o) := by
  unfold k0_pay3
  simp only [shapeCast_self]
  rw [addf_apply, broadcastTo_1b_ab_apply]
  refine congrArg (· + b2row (ix2 (0 : Fin 1) o)) ?_
  refine (Cert.PlainMatmul.plain_apply _ w2 p o).trans ?_
  exact Finset.sum_congr rfl fun j _ => congrArg (· * w2 (ix2 j o)) (hidden_apply x0 we be p j)

end Cert.KernelIdeal.Payload

end
-- ==== Proof.LibAffineLayers.lean ====
/-
  Two affine layers with no nonlinearity between them are one affine layer.

  For a row `x` over a finite index type `F`, a matrix `A : F × K`, a bias `b : K`, one column `B : K` of a second matrix
  and one entry `d` of a second bias,
      `Σ_k (Σ_f x f · A (f, k) + b k) · B k + d  =  Σ_f x f · (Σ_k A (f, k) · B k) + (Σ_k b k · B k + d)`:
  the matrix product is associative and distributes over the bias row (`fold_layers`, over the reals). On the extended
  reals distributivity fails at the infinities, so the extended-real form is stated between readings of reals
  (`fold_layers_coe`); it rests on a finite sum of reals read in the extended reals being the sum of the readings
  (`coe_sum`).
-/
import Idealize.ShloMosaic.PureOps.Ideal

namespace Cert.AffineLayers

/-- A finite sum of reals, read in the extended reals, is the sum of the readings. -/
theorem coe_sum {ι : Type} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- Over the reals, for one output column (`B k` the second matrix's column, `d` the second bias's entry): feeding the
    first layer's row `Σ_f x f · A (f, k) + b k` through the second layer is feeding `x` through the product matrix
    and adding the first bias pushed through the second layer. -/
theorem fold_layers {F K : Type} [Fintype F] [Fintype K] (x : F → ℝ) (A : F → K → ℝ) (b B : K → ℝ) (d : ℝ) :
    (∑ k, ((∑ f, x f * A f k) + b k) * B k) + d
      = (∑ f, x f * ∑ k, A f k * B k) + ((∑ k, b k * B k) + d) := by
  have h1 : ∑ k, ((∑ f, x f * A f k) + b k) * B k = (∑ k, ∑ f, x f * (A f k * B k)) + ∑ k, b k * B k := by
    rw [← Finset.sum_add_distrib]
    refine Finset.sum_congr rfl fun k _ => ?_
    rw [add_mul, Finset.sum_mul]
    congr 1
    exact Finset.sum_congr rfl fun f _ => mul_assoc _ _ _
  have h2 : ∑ f, x f * ∑ k, A f k * B k = ∑ k, ∑ f, x f * (A f k * B k) := by
    rw [Finset.sum_comm]
    exact Finset.sum_congr rfl fun f _ => Finset.mul_sum _ _ _
  rw [h1, h2, add_assoc]

/-- The same law between extended reals that are readings of reals. -/
theorem fold_layers_coe {F K : Type} [Fintype F] [Fintype K] (x : F → ℝ) (A : F → K → ℝ) (b B : K → ℝ) (d : ℝ) :
    (∑ k, ((∑ f, (x f : EReal) * (A f k : EReal)) + (b k : EReal)) * (B k : EReal)) + (d : EReal)
      = (∑ f, (x f : EReal) * ∑ k, (A f k : EReal) * (B k : EReal)) + ((∑ k, (b k : EReal) * (B k : EReal)) + (d : EReal)) := by
  simp only [← EReal.coe_mul, ← coe_sum, ← EReal.coe_add]
  exact congrArg _ (fold_layers x A b B d)

end Cert.AffineLayers
-- ==== Proof.Spec.lean ====
/-
  The head of a three-layer perceptron as one function of its seven argument arrays, and the law that joins its two
  arrangements.

  With `x : [B, F]`, `Wp : [F, H]`, `bp : [H]`, `W1 : [H, H]`, `b1 : [H]`, `W2 : [H, O]`, `b2 : [O]`, the layered
  arrangement computes row `r` of the hidden layer as `((x·Wp + bp)·W1 + b1)(r, j)`, the folded arrangement as
  `(x·(Wp·W1) + (bp·W1 + b1))(r, j)`. Both then take the maximum with the zero word and apply the last affine layer.
  Over the reals the two hidden rows agree: matrix product is associative and distributes over the bias row (the law
  of two affine layers). On the extended reals this needs every entry to be a real number (distributivity fails at
  the infinities), so the two arrangements are joined on arrays of real entries (`layered_eq_folded`).
-/
import Idealize.ShloMosaic.PureOps.Ideal
import Idealize.ShloMosaic.Lib.ValueIdx
import proofs.«133179_g50646254354566_cont_8to1c4_339_32_alg».proof.Proof.LibAffineLayers

noncomputable section

namespace Cert.MlpHead

open Idealize.ShloMosaic Idealize.ShloMosaic.ValueIdx

/-! ## The specification, in the folded arrangement -/

/-- The product of the first two weight matrices at `(f, j)`. -/
def foldedWeight (Wp : (⟨2, ![512, 256]⟩ : Shape).Idx → EReal) (W1 : (⟨2, ![256, 256]⟩ : Shape).Idx → EReal)
    (f : Fin 512) (j : Fin 256) : EReal :=
  ∑ k : Fin 256, Wp (ix2 f k) * W1 (ix2 k j)

/-- The first bias pushed through the second layer, plus the second bias, at `j`. -/
def foldedBias (bp : (⟨1, ![256]⟩ : Shape).Idx → EReal) (W1 : (⟨2, ![256, 256]⟩ : Shape).Idx → EReal)
    (b1 : (⟨1, ![256]⟩ : Shape).Idx → EReal) (j : Fin 256) : EReal :=
  (∑ k : Fin 256, bp (ix1 k) * W1 (ix2 k j)) + b1 (ix1 j)

/-- The hidden layer after the maximum with the zero word, at row `r`, unit `j`. -/
def hidden (x : (⟨2, ![16384, 512]⟩ : Shape).Idx → EReal) (Wp : (⟨2, ![512, 256]⟩ : Shape).Idx → EReal)
    (bp : (⟨1, ![256]⟩ : Shape).Idx → EReal) (W1 : (⟨2, ![256, 256]⟩ : Shape).Idx → EReal)
    (b1 : (⟨1, ![256]⟩ : Shape).Idx → EReal) (r : Fin 16384) (j : Fin 256) : EReal :=
  max ((∑ f : Fin 512, x (ix2 r f) * foldedWeight Wp W1 f j) + foldedBias bp W1 b1 j) (Ideal.ofBits .f32 0x00000000#32)

/-- The result at row `r`, output channel `o`. -/
def headAt (x : (⟨2, ![16384, 512]⟩ : Shape).Idx → EReal) (Wp : (⟨2, ![512, 256]⟩ : Shape).Idx → EReal)
    (bp : (⟨1, ![256]⟩ : Shape).Idx → EReal) (W1 : (⟨2, ![256, 256]⟩ : Shape).Idx → EReal)
    (b1 : (⟨1, ![256]⟩ : Shape).Idx → EReal) (W2 : (⟨2, ![256, 16]⟩ : Shape).Idx → EReal)
    (b2 : (⟨1, ![16]⟩ : Shape).Idx → EReal) (r : Fin 16384) (o : Fin 16) : EReal :=
  (∑ j : Fin 256, hidden x Wp bp W1 b1 r j * W2 (ix2 j o)) + b2 (ix1 o)

/-- The result array: `headAt` at an index's two coordinates. -/
def head (x : (⟨2, ![16384, 512]⟩ : Shape).Idx → EReal) (Wp : (⟨2, ![512, 256]⟩ : Shape).Idx → EReal)
    (bp : (⟨1, ![256]⟩ : Shape).Idx → EReal) (W1 : (⟨2, ![256, 256]⟩ : Shape).Idx → EReal)
    (b1 : (⟨1, ![256]⟩ : Shape).Idx → EReal) (W2 : (⟨2, ![256, 16]⟩ : Shape).Idx → EReal)
    (b2 : (⟨1, ![16]⟩ : Shape).Idx → EReal) : (⟨2, ![16384, 16]⟩ : Shape).Idx → EReal :=
  fun i => headAt x Wp bp W1 b1 W2 b2 (i 0) (i 1)

theorem head_ix2 (x : (⟨2, ![16384, 512]⟩ : Shape).Idx → EReal) (Wp : (⟨2, ![512, 256]⟩ : Shape).Idx → EReal)
    (bp : (⟨1, ![256]⟩ : Shape).Idx → EReal) (W1 : (⟨2, ![256, 256]⟩ : Shape).Idx → EReal)
    (b1 : (⟨1, ![256]⟩ : Shape).Idx → EReal) (W2 : (⟨2, ![256, 16]⟩ : Shape).Idx → EReal)
    (b2 : (⟨1, ![16]⟩ : Shape).Idx → EReal) (r : Fin 16384) (o : Fin 16) :
    head x Wp bp W1 b1 W2 b2 (ix2 r o) = headAt x Wp bp W1 b1 W2 b2 r o := rfl

/-! ## The layered arrangement is the folded one, on arrays of real numbers -/

/-- When every entry of the five arrays of the first two layers is a real number, the layered hidden row
    `((x·Wp + bp)·W1 + b1)(r, j)` is the folded one. -/
theorem layered_eq_folded (x : (⟨2, ![16384, 512]⟩ : Shape).Idx → EReal) (Wp : (⟨2, ![512, 256]⟩ : Shape).Idx → EReal)
    (bp : (⟨1, ![256]⟩ : Shape).Idx → EReal) (W1 : (⟨2, ![256, 256]⟩ : Shape).Idx → EReal)
    (b1 : (⟨1, ![256]⟩ : Shape).Idx → EReal)
    (hx : ∀ i, ∃ v : ℝ, x i = v) (hWp : ∀ i, ∃ v : ℝ, Wp i = v) (hbp : ∀ i, ∃ v : ℝ, bp i = v)
    (hW1 : ∀ i, ∃ v : ℝ, W1 i = v) (hb1 : ∀ i, ∃ v : ℝ, b1 i = v) (r : Fin 16384) (j : Fin 256) :
    (∑ k : Fin 256, ((∑ f : Fin 512, x (ix2 r f) * Wp (ix2 f k)) + bp (ix1 k)) * W1 (ix2 k j)) + b1 (ix1 j)
      = (∑ f : Fin 512, x (ix2 r f) * foldedWeight Wp W1 f j) + foldedBias bp W1 b1 j := by
  choose x' ex using hx
  choose Wp' eWp using hWp
  choose bp' ebp using hbp
  choose W1' eW1 using hW1
  choose b1' eb1 using hb1
  unfold foldedWeight foldedBias
  simp only [ex, eWp, ebp, eW1, eb1]
  exact Cert.AffineLayers.fold_layers_coe (fun f : Fin 512 => x' (ix2 r f)) (fun (f : Fin 512) (k : Fin 256) => Wp' (ix2 f k))
    (fun k : Fin 256 => bp' (ix1 k)) (fun k : Fin 256 => W1' (ix2 k j)) (b1' (ix1 j))

end Cert.MlpHead

end
-- ==== Proof.BlockValue.lean ====
/-
  One entry of an output block is the specification's entry.

  The body computes an output block from an input block of rows, the weight scratch, the bias scratch, the last weight
  matrix and the last bias row. When the two scratch buffers hold the folded weight matrix and the folded bias row,
  entry `(p, o)` of the block is the specification at the array row `r` that the block's row `p` is, output channel `o`:
  both are `Σ_j max (Σ_f x (r, f) · (Wp·W1)(f, j) + (bp·W1 + b1)(j)) 0 · W2 (j, o) + b2 (o)`, term by term.
-/
import proofs.«133179_g50646254354566_cont_8to1c4_339_32_alg».proof.Proof.Payload
import proofs.«133179_g50646254354566_cont_8to1c4_339_32_alg».proof.Proof.Spec

noncomputable section

namespace Cert.KernelIdeal.BlockValue

open Cert.KernelIdeal Cert.KernelIdeal.Gen Cert.KernelIdeal.Payload
open Idealize.ShloMosaic Idealize.ShloMosaic.ValueIdx

/-- Entry `(p, o)` of the block computed from rows `xblk` that are the array's rows (`hx`: block row `p` is array row
    `r`) and from bias rows that are the bias vectors laid as one row (`hbp`, `hb1`, `hb2`). -/
theorem block_eq_head (xblk : FVec Ideal S4096x512 .f32) (Wp : FVec Ideal S512x256 .f32) (bprow : FVec Ideal S1x256 .f32)
    (W1 : FVec Ideal S256x256 .f32) (b1row : FVec Ideal S1x256 .f32) (W2 : FVec Ideal S256x16 .f32)
    (b2row : FVec Ideal S1x16 .f32) (x : FVec Ideal S16384x512 .f32) (bp b1 : FVec Ideal S256 .f32)
    (b2 : FVec Ideal S16 .f32) (r : Fin 16384) (p : Fin 4096)
    (hx : ∀ f : Fin 512, xblk (ix2 p f) = x (ix2 r f))
    (hbp : ∀ k : Fin 256, bprow (ix2 (0 : Fin 1) k) = bp (ix1 k))
    (hb1 : ∀ k : Fin 256, b1row (ix2 (0 : Fin 1) k) = b1 (ix1 k))
    (hb2 : ∀ o : Fin 16, b2row (ix2 (0 : Fin 1) o) = b2 (ix1 o)) (o : Fin 16) :
    k0_pay3 (F := Ideal) xblk (k0_pay1 (F := Ideal) W1 Wp) (k0_pay2 (F := Ideal) W1 bprow b1row) W2 b2row (ix2 p o)
      = Cert.MlpHead.headAt x Wp bp W1 b1 W2 b2 r o := by
  rw [out_apply]
  unfold Cert.MlpHead.headAt Cert.MlpHead.hidden Cert.MlpHead.foldedWeight Cert.MlpHead.foldedBias
  simp only [weight_apply, bias_apply, hx, hbp, hb1, hb2]

end Cert.KernelIdeal.BlockValue

end
-- ==== Proof.KernelValue.lean ====
/-
  The kernel's result array is the specification of its argument arrays.

  The two scratch buffers are written once, at the first grid point, with the product of the first two weight matrices
  and the first bias pushed through the second layer plus the second bias; no later point stores into them. So after
  EVERY point they hold those two values (induction on the point), and every point's output block is the streamed
  computation over its block of input rows and those two values. Entry `(p, o)` of point `t`'s block is then the
  specification at row `4096·t + p`, channel `o`. Point `t` writes its block back to rows `4096·t … 4096·t + 4095` of
  the result array, and the four blocks cover the array's 16384 rows: the array ends holding the specification.
-/
import proofs.«133179_g50646254354566_cont_8to1c4_339_32_alg».proof.Proof.Gen.KernelIdeal.Value
import proofs.«133179_g50646254354566_cont_8to1c4_339_32_alg».proof.Proof.Pieces
import proofs.«133179_g50646254354566_cont_8to1c4_339_32_alg».proof.Proof.Blocks
import proofs.«133179_g50646254354566_cont_8to1c4_339_32_alg».proof.Proof.BlockValue

noncomputable section

namespace Cert.KernelIdeal.HeadValue

open Cert.KernelIdeal Cert.KernelIdeal.Gen
open Idealize.ShloMosaic Idealize.ShloMosaic.TcCoe Idealize.SL.Sem Idealize.ShloMosaic.ValueIdx
open Idealize.ShloMosaic.Pipeline (Dat)

/-! ## The scratch buffers hold the folded layer after every point -/

section anyValues

variable {F : FTy → Type} [FloatOps F]
variable (m : (ℓ : Loc nD τ sig) → Buf (Elt F) ℓ)

/-- What the weight scratch holds: the product of the first two weight matrices as the region finds them. -/
def weightScratch (c : Dev nD) : Vec F S512x256 .f32 := k0_pay1 (V m c main_arg3) (V m c main_arg1)

/-- What the bias scratch holds: the first bias row through the second layer, plus the second bias row. -/
def biasScratch (c : Dev nD) : Vec F S1x256 .f32 := k0_pay2 (V m c main_arg3) (V m c main_v0) (V m c main_v1)

/-- Point `t`'s output block: the streamed computation over its input rows and the two scratch values. -/
def blockAt (c : Dev nD) (t : Fin cfg0.N) : Vec F S4096x16 .f32 :=
  k0_pay3 (iblk m c 0 t) (weightScratch m c) (biasScratch m c) (V m c main_arg5) (V m c main_v2)

/-- After every point the output's staging buffer holds that point's block and the two scratch buffers hold the
    folded layer: by induction on the point, the first point storing them and every later point keeping them. -/
theorem outsAt_eq (c : Dev nD) : ∀ (n : ℕ) (h : n < cfg0.N),
    outsAt0 m c n h = (blockAt m c ⟨n, h⟩, weightScratch m c, biasScratch m c)
  | 0, h => by
    rw [outsAt0_A m c ⟨0, h⟩ rfl, Pieces.outBlock_first, Pieces.weightScratch_first, Pieces.biasScratch_first]
    unfold blockAt weightScratch biasScratch
    rw [Blocks.block1 m c (⟨0, h⟩ : Fin cfg0.N), Blocks.block2 m c (⟨0, h⟩ : Fin cfg0.N), Blocks.block3 m c (⟨0, h⟩ : Fin cfg0.N), Blocks.block4 m c (⟨0, h⟩ : Fin cfg0.N),
      Blocks.block5 m c (⟨0, h⟩ : Fin cfg0.N), Blocks.block6 m c (⟨0, h⟩ : Fin cfg0.N)]
  | n + 1, h => by
    have hN : cfg0.N = 4 := N_0
    have hB : ¬(⟨n + 1, h⟩ : Fin cfg0.N).val % 4 = 0 := by dsimp only; omega
    rw [outsAt0_B m c (⟨n + 1, h⟩ : Fin cfg0.N) hB, Pieces.outBlock_later]
    unfold sout0_B_0 sout0_B_1
    show (k0_pay3 (iblk m c 0 (⟨n + 1, h⟩ : Fin cfg0.N)) (outsAt0 m c n _).2.1 (outsAt0 m c n _).2.2 (iblk m c 5 (⟨n + 1, h⟩ : Fin cfg0.N)) (iblk m c 6 (⟨n + 1, h⟩ : Fin cfg0.N)),
      (outsAt0 m c n _).2.1, (outsAt0 m c n _).2.2) = _
    rw [outsAt_eq c n]
    unfold blockAt
    rw [Blocks.block5 m c (⟨n + 1, h⟩ : Fin cfg0.N), Blocks.block6 m c (⟨n + 1, h⟩ : Fin cfg0.N)]

end anyValues

/-! ## On the extended reals: each block is the specification's rows, and the blocks cover the array -/

variable (m : (ℓ : Loc nD τ sig) → Buf (Elt Ideal) ℓ) (ρ : Dev nD → PrngReg)

/-- The specification of the seven argument arrays as launched, as contents of the result array. -/
def result (c : Dev nD) : Buf (Elt Ideal) ((c : Thread nD τ).loc main_v3) :=
  Cert.MlpHead.head (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))

/-- What point `t` writes back is block `t` of the specification: entry `(p, o)` of its block is the specification at
    row `4096·t + p`. -/
theorem flushed_eq (c : Dev nD) (t : Fin cfg0.N) :
    (dats m 0 c).flushed 7 t = ((cfg0.win 7).blk t).view.read (Elt Ideal) (result m c) := by
  rw [Value.flushed7, outsAt_eq m c t.val t.isLt]
  obtain ⟨-, -, -, -, -, -, -, -, -, -, -, -, -, -, e0, e1⟩ := Blocks.idx_facts t
  have hN : cfg0.N = 4 := N_0
  funext y
  obtain ⟨p, o, rfl⟩ : ∃ (p : Fin 4096) (o : Fin 16), y = ix2 p o := ⟨y 0, y 1, eq_ix2 y⟩
  have hr : t.val * 4096 + p.val < 16384 := by have := t.isLt; omega
  have hi : ((cfg0.win 7).blk t).view.emb (ix2 p o) = (ix2 (⟨t.val * 4096 + p.val, hr⟩ : Fin 16384) o : S16384x16.Idx) := by
    funext a; apply Fin.ext
    match a with
    | ⟨0, _⟩ => show win0_7.index t (0 : Fin 2) * 4096 + 1 * p.val = t.val * 4096 + p.val; omega
    | ⟨1, _⟩ => show win0_7.index t (1 : Fin 2) * 16 + 1 * o.val = o.val; omega
  rw [View.read_apply, hi]
  show k0_pay3 (iblk m c 0 t) (k0_pay1 (V m c main_arg3) (V m c main_arg1))
      (k0_pay2 (V m c main_arg3) (V m c main_v0) (V m c main_v1)) (V m c main_arg5) (V m c main_v2) (ix2 p o)
    = Cert.MlpHead.head (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
        (ix2 (⟨t.val * 4096 + p.val, hr⟩ : Fin 16384) o)
  rw [V_main_arg1 m c, V_main_arg3 m c, V_main_arg5 m c, Cert.MlpHead.head_ix2]
  exact BlockValue.block_eq_head (iblk m c 0 t) (m ((c : Thread nD τ).loc main_arg1)) (V m c main_v0) (m ((c : Thread nD τ).loc main_arg3)) (V m c main_v1) (m ((c : Thread nD τ).loc main_arg5))
    (V m c main_v2) (m ((c : Thread nD τ).loc main_arg0)) (m ((c : Thread nD τ).loc main_arg2)) (m ((c : Thread nD τ).loc main_arg4)) (m ((c : Thread nD τ).loc main_arg6)) ⟨t.val * 4096 + p.val, hr⟩ p
    (fun f => (Blocks.block0_apply m c t p f ⟨t.val * 4096 + p.val, hr⟩ rfl).trans (congrFun (V_main_arg0 m c) _))
    (Blocks.row_bp m c) (Blocks.row_b1 m c) (Blocks.row_b2 m c) o

/-- An index of the result array is in point `t`'s block iff each coordinate is in the block's range on its axis. -/
theorem mem_block (t : Fin cfg0.N) (i : S16384x16.Idx) :
    i ∈ ((cfg0.win 7).blk t).view.set ↔ ∀ a : Fin 2, win0_7.index t a * S4096x16.size a ≤ (i a).val
      ∧ (i a).val < win0_7.index t a * S4096x16.size a + S4096x16.size a := by
  show i ∈ ((View.whole main_v3).slice (win0_7.rect t)).set ↔ _
  rw [View.set_slice_whole, Rect.mem_set_unit]
  exact Iff.rfl

/-- Each of the four row blocks is some point's. -/
theorem block_onto : ∀ q : Fin 4, ∃ t : Fin cfg0.N, win0_7.index t = ![q.val, 0] :=
  (by decide +kernel : ∀ q : Fin 4, ∃ t : Fin grid0.N, win0_7.index t = ![q.val, 0])

/-- Every index of the result array is in the block of the point that owns its row: row `r` belongs to point `r / 4096`. -/
theorem cover (i : S16384x16.Idx) :
    ∃ t : Fin cfg0.N, (cfg0.win 7).flush t = true ∧ i ∈ ((cfg0.win 7).blk t).view.set := by
  have hi0 : (i 0).val < 16384 := (i 0).isLt
  have hi1 : (i 1).val < 16 := (i 1).isLt
  obtain ⟨t, ht⟩ := block_onto ⟨(i 0).val / 4096, by omega⟩
  have q0 : win0_7.index t (0 : Fin 2) = (i 0).val / 4096 := congrFun ht 0
  have q1 : win0_7.index t (1 : Fin 2) = 0 := congrFun ht 1
  refine ⟨t, flush0_7 t, ?_⟩
  rw [mem_block]
  intro a
  match a with
  | ⟨0, _⟩ =>
    show win0_7.index t (0 : Fin 2) * 4096 ≤ (i 0).val ∧ (i 0).val < win0_7.index t (0 : Fin 2) * 4096 + 4096
    omega
  | ⟨1, _⟩ =>
    show win0_7.index t (1 : Fin 2) * 16 ≤ (i 1).val ∧ (i 1).val < win0_7.index t (1 : Fin 2) * 16 + 16
    omega

/-- The result array after the run is the specification. -/
theorem final (c : Dev nD) : (dats m 0 c).arrAt 7 cfg0.N = result m c :=
  (dats m 0 c).arrAt_eq_of_cover 7 (result m c) (fun t _ => flushed_eq m c t) cover

/-- The kernel's run: the result array at the specification, the arguments unchanged. -/
theorem run : θ_run defs (onTc (τ := τ) (main (F := Ideal))) ⟨m, fun _ => 0, ρ⟩ fun r => ∀ c : Dev nD,
      r.2.mem ((c : Thread nD τ).loc main_v3) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (Value.run_blocks m ρ)

end Cert.KernelIdeal.HeadValue

end
-- ==== Proof.RefValue.lean ====
/-
  The reference's result, read entry by entry, is the specification — when every entry of the arrays of the first two
  layers is a real number.

  The reference computes the layered arrangement: `x·Wp + bp`, then `·W1 + b1`, the maximum with the zero word, then
  `·W2 + b2`. Read at `(r, o)` stage by stage, its hidden row before the maximum is
  `Σ_k (Σ_f x (r, f) · Wp (f, k) + bp k) · W1 (k, j) + b1 j`, which the law of two affine layers turns into the
  folded arrangement of the specification. The last layer and the maximum are the same on both sides.
-/
import proofs.«133179_g50646254354566_cont_8to1c4_339_32_alg».proof.Proof.Gen.ReferenceIdeal.Read
import proofs.«133179_g50646254354566_cont_8to1c4_339_32_alg».proof.Proof.Spec

noncomputable section

namespace Cert.ReferenceIdeal.RefValue

open Cert.ReferenceIdeal Cert.ReferenceIdeal.Gen Cert.ReferenceIdeal.Read
open Idealize.ShloMosaic Idealize.ShloMosaic.ValueIdx

/-! ## The indices each stage reads, by coordinates -/

theorem lhs0 (r : Fin 16384) (k : Fin 256) (f : Fin 512) : lidx_main_v0 (ix2 r k) f = (ix2 r f : S16384x512.Idx) :=
  funext fun a => Fin.ext (by match a with | ⟨0, _⟩ => rfl | ⟨1, _⟩ => rfl)
theorem rhs0 (r : Fin 16384) (k : Fin 256) (f : Fin 512) : ridx_main_v0 (ix2 r k) f = (ix2 f k : S512x256.Idx) :=
  funext fun a => Fin.ext (by match a with | ⟨0, _⟩ => rfl | ⟨1, _⟩ => rfl)
theorem row1 (k : Fin 256) : idx_main_v1 (ix2 (0 : Fin 1) k) = (ix1 k : S256.Idx) :=
  funext fun a => Fin.ext (by match a with | ⟨0, _⟩ => rfl)
theorem row2 (r : Fin 16384) (k : Fin 256) : idx_main_v2 (ix2 r k) = (ix2 (0 : Fin 1) k : S1x256.Idx) :=
  funext fun a => Fin.ext (by match a with | ⟨0, _⟩ => rfl | ⟨1, _⟩ => rfl)
theorem lhs4 (r : Fin 16384) (j k : Fin 256) : lidx_main_v4 (ix2 r j) k = (ix2 r k : S16384x256.Idx) :=
  funext fun a => Fin.ext (by match a with | ⟨0, _⟩ => rfl | ⟨1, _⟩ => rfl)
theorem rhs4 (r : Fin 16384) (j k : Fin 256) : ridx_main_v4 (ix2 r j) k = (ix2 k j : S256x256.Idx) :=
  funext fun a => Fin.ext (by match a with | ⟨0, _⟩ => rfl | ⟨1, _⟩ => rfl)
theorem row5 (j : Fin 256) : idx_main_v5 (ix2 (0 : Fin 1) j) = (ix1 j : S256.Idx) :=
  funext fun a => Fin.ext (by match a with | ⟨0, _⟩ => rfl)
theorem row6 (r : Fin 16384) (j : Fin 256) : idx_main_v6 (ix2 r j) = (ix2 (0 : Fin 1) j : S1x256.Idx) :=
  funext fun a => Fin.ext (by match a with | ⟨0, _⟩ => rfl | ⟨1, _⟩ => rfl)
theorem lhs9 (r : Fin 16384) (o : Fin 16) (j : Fin 256) : lidx_main_v9 (ix2 r o) j = (ix2 r j : S16384x256.Idx) :=
  funext fun a => Fin.ext (by match a with | ⟨0, _⟩ => rfl | ⟨1, _⟩ => rfl)
theorem rhs9 (r : Fin 16384) (o : Fin 16) (j : Fin 256) : ridx_main_v9 (ix2 r o) j = (ix2 j o : S256x16.Idx) :=
  funext fun a => Fin.ext (by match a with | ⟨0, _⟩ => rfl | ⟨1, _⟩ => rfl)
theorem row10 (o : Fin 16) : idx_main_v10 (ix2 (0 : Fin 1) o) = (ix1 o : S16.Idx) :=
  funext fun a => Fin.ext (by match a with | ⟨0, _⟩ => rfl)
theorem row11 (r : Fin 16384) (o : Fin 16) : idx_main_v11 (ix2 r o) = (ix2 (0 : Fin 1) o : S1x16.Idx) :=
  funext fun a => Fin.ext (by match a with | ⟨0, _⟩ => rfl | ⟨1, _⟩ => rfl)

/-! ## The stages at coordinates -/

/-- The first layer at `(r, k)`: `Σ_f x (r, f) · Wp (f, k) + bp k`. -/
theorem first_apply (x0 : FVec Ideal S16384x512 .f32) (x1 : FVec Ideal S512x256 .f32) (x2 : FVec Ideal S256 .f32)
    (r : Fin 16384) (k : Fin 256) :
    val_main_v3 (F := Ideal) x0 x1 x2 (ix2 r k) = (∑ f : Fin 512, x0 (ix2 r f) * x1 (ix2 f k)) + x2 (ix1 k) := by
  rw [val_main_v3_apply, val_main_v0_apply, val_main_v2_apply, val_main_v1_apply]
  simp only [lhs0, rhs0, row2, row1, Ideal.addf_def]

/-- The second layer at `(r, j)`, before the maximum. -/
theorem second_apply (x0 : FVec Ideal S16384x512 .f32) (x1 : FVec Ideal S512x256 .f32) (x2 : FVec Ideal S256 .f32)
    (x3 : FVec Ideal S256x256 .f32) (x4 : FVec Ideal S256 .f32) (r : Fin 16384) (j : Fin 256) :
    val_main_v7 (F := Ideal) x0 x1 x2 x3 x4 (ix2 r j)
      = (∑ k : Fin 256, ((∑ f : Fin 512, x0 (ix2 r f) * x1 (ix2 f k)) + x2 (ix1 k)) * x3 (ix2 k j)) + x4 (ix1 j) := by
  rw [val_main_v7_apply, val_main_v4_apply, val_main_v6_apply, val_main_v5_apply]
  simp only [lhs4, rhs4, row6, row5, first_apply, Ideal.addf_def]

/-- The hidden layer at `(r, j)` is the specification's, on arrays of real numbers. -/
theorem hidden_apply (x0 : FVec Ideal S16384x512 .f32) (x1 : FVec Ideal S512x256 .f32) (x2 : FVec Ideal S256 .f32)
    (x3 : FVec Ideal S256x256 .f32) (x4 : FVec Ideal S256 .f32)
    (h0 : ∀ i, ∃ v : ℝ, x0 i = (v : EReal)) (h1 : ∀ i, ∃ v : ℝ, x1 i = (v : EReal)) (h2 : ∀ i, ∃ v : ℝ, x2 i = (v : EReal))
    (h3 : ∀ i, ∃ v : ℝ, x3 i = (v : EReal)) (h4 : ∀ i, ∃ v : ℝ, x4 i = (v : EReal)) (r : Fin 16384) (j : Fin 256) :
    val_main_v8 (F := Ideal) x0 x1 x2 x3 x4 (ix2 r j) = Cert.MlpHead.hidden x0 x1 x2 x3 x4 r j := by
  rw [val_main_v8_apply, val_main_call0_v0_apply, val_main_call0_cst_apply, second_apply,
    Cert.MlpHead.layered_eq_folded x0 x1 x2 x3 x4 h0 h1 h2 h3 h4 r j]
  rfl

/-- The reference's result array is the specification, on arrays of real numbers. -/
theorem result_eq_head (x0 : FVec Ideal S16384x512 .f32) (x1 : FVec Ideal S512x256 .f32) (x2 : FVec Ideal S256 .f32)
    (x3 : FVec Ideal S256x256 .f32) (x4 : FVec Ideal S256 .f32) (x5 : FVec Ideal S256x16 .f32) (x6 : FVec Ideal S16 .f32)
    (h0 : ∀ i, ∃ v : ℝ, x0 i = (v : EReal)) (h1 : ∀ i, ∃ v : ℝ, x1 i = (v : EReal)) (h2 : ∀ i, ∃ v : ℝ, x2 i = (v : EReal))
    (h3 : ∀ i, ∃ v : ℝ, x3 i = (v : EReal)) (h4 : ∀ i, ∃ v : ℝ, x4 i = (v : EReal)) :
    val_main_v12 (F := Ideal) x0 x1 x2 x3 x4 x5 x6 = Cert.MlpHead.head x0 x1 x2 x3 x4 x5 x6 := by
  funext i
  obtain ⟨r, o, rfl⟩ : ∃ (r : Fin 16384) (o : Fin 16), i = ix2 r o := ⟨i 0, i 1, eq_ix2 i⟩
  rw [Cert.MlpHead.head_ix2, val_main_v12_apply, val_main_v9_apply, val_main_v11_apply, val_main_v10_apply]
  unfold Cert.MlpHead.headAt
  simp only [lhs9, rhs9, row11, row10, hidden_apply x0 x1 x2 x3 x4 h0 h1 h2 h3 h4, Ideal.addf_def]

end Cert.ReferenceIdeal.RefValue

end
-- ==== Proof.lean ====
/-
  A fused three-layer perceptron head against its layer-by-layer form, on the extended reals.

  The kernel computes `max (x·(Wp·W1) + (bp·W1 + b1)) 0 · W2 + b2` over `x : [16384, 512]` in four blocks of 4096 rows:
  at its first grid point it forms the product `Wp·W1` and the row `bp·W1 + b1` once, keeps both in scratch, and at every
  point streams one block of rows through them and through the last layer. The reference computes
  `max ((x·Wp + bp)·W1 + b1) 0 · W2 + b2` layer by layer on the whole array.

  The two agree entry by entry because two affine layers with nothing between them are one affine layer:
  `(x·Wp + bp)·W1 + b1 = x·(Wp·W1) + (bp·W1 + b1)`, by associativity of the matrix product and its distributing over
  the bias row. On the extended reals distributivity fails at the infinities, so this is where the precondition is
  used: it makes every entry of every argument a real number, and the identity is then the one over the reals. The
  maximum with zero and the last layer are the same operations of the same values on both sides.

  The pieces: the specification and the law (Spec); the precondition read as "every entry is real" (Finite); what
  each case of the kernel body leaves in its buffers (Pieces) and those values read entry by entry (Payload,
  BlockValue); the windows' blocks read off their arrays (Blocks); the scratch buffers' contents after every point, each
  written block, the cover of the result array and the kernel's run (KernelValue); the reference read stage by stage
  (RefValue). The three frame claims are the generated frame runs; the idealization rewrote nothing.
-/
import proofs.«133179_g50646254354566_cont_8to1c4_339_32_alg».proof.Defs
import proofs.«133179_g50646254354566_cont_8to1c4_339_32_alg».proof.Proof.Gen.Kernel
import proofs.«133179_g50646254354566_cont_8to1c4_339_32_alg».proof.Proof.Gen.Kernel.Frame
import proofs.«133179_g50646254354566_cont_8to1c4_339_32_alg».proof.Proof.Gen.KernelIdeal
import proofs.«133179_g50646254354566_cont_8to1c4_339_32_alg».proof.Proof.Gen.KernelIdeal.Frame
import proofs.«133179_g50646254354566_cont_8to1c4_339_32_alg».proof.Proof.Gen.KernelIdeal.Value
import proofs.«133179_g50646254354566_cont_8to1c4_339_32_alg».proof.Proof.Gen.ReferenceIdeal
import proofs.«133179_g50646254354566_cont_8to1c4_339_32_alg».proof.Proof.Gen.ReferenceIdeal.Run
import proofs.«133179_g50646254354566_cont_8to1c4_339_32_alg».proof.Proof.Gen.ReferenceIdeal.Read
import proofs.«133179_g50646254354566_cont_8to1c4_339_32_alg».proof.Proof.Gen.Pre_finite_inputs
import proofs.«133179_g50646254354566_cont_8to1c4_339_32_alg».proof.Proof.Finite
import proofs.«133179_g50646254354566_cont_8to1c4_339_32_alg».proof.Proof.KernelValue
import proofs.«133179_g50646254354566_cont_8to1c4_339_32_alg».proof.Proof.RefValue

noncomputable section

namespace Cert.Proof

open Idealize.ShloMosaic Idealize.SL.Sem

/-- The kernel as printed runs and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments as they were: its run with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the seven arguments, all of real entries, the kernel's result array ends at the
    specification of the arguments and the reference's at its layered term of the same arguments, which is the
    specification by the law of two affine layers. -/
theorem algebraic : Cert.algebraic_KernelIdeal_ReferenceIdeal := by
  intro m ρ m' ρ' hpre hagree
  refine ⟨fun c => Cert.KernelIdeal.HeadValue.result m c, Cert.KernelIdeal.HeadValue.run m ρ, ?_⟩
  refine (θ_run Cert.ReferenceIdeal.defs _ _).mono (fun _ h c => ⟨(h c).1.trans ?_, (h c).2⟩)
    (Cert.ReferenceIdeal.Value.run (F := Ideal) m' ρ')
  obtain ⟨f0, f1, f2, f3, f4, -, -⟩ := Cert.FiniteInputs.all_real _ _ _ _ _ _ _ (hpre c)
  rw [Cert.ReferenceIdeal.Read.val_main_v12_eq, (hagree c).1, (hagree c).2.1, (hagree c).2.2.1, (hagree c).2.2.2.1,
    (hagree c).2.2.2.2.1, (hagree c).2.2.2.2.2.1, (hagree c).2.2.2.2.2.2]
  exact Cert.ReferenceIdeal.RefValue.result_eq_head _ _ _ _ _ _ _ f0 f1 f2 f3 f4

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
